-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x128 : Shape := ⟨2, ![1024, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S8x2048x1024 .f32) (main_arg1 : FVec F S1024x128 .f32) (main_arg2 : FVec F S1024x128 .f32) (main_arg3 : FVec F S1024x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S8x2048x1024 : Shape := ⟨3, ![8, 2048, 1024]⟩
abbrev S1024x128 : Shape := ⟨2, ![1024, 128]⟩
abbrev S_ : Shape := ⟨0, ![]⟩
abbrev S8x2048x128 : Shape := ⟨3, ![8, 2048, 128]⟩
abbrev S1x2048x1024 : Shape := ⟨3, ![1, 2048, 1024]⟩
abbrev S1x2048x128 : Shape := ⟨3, ![1, 2048, 128]⟩
abbrev S2048x128 : Shape := ⟨2, ![2048, 128]⟩
abbrev S2048x1024 : Shape := ⟨2, ![2048, 1024]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1x256x128 : Shape := ⟨3, ![1, 256, 128]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S1024x128, .bf16⟩
  | .hbm, ⟨8, _⟩ => ⟨S1024x128, .bf16⟩
  | .hbm, ⟨9, _⟩ => ⟨S1024x128, .bf16⟩
  | .hbm, ⟨10, _⟩ => ⟨S8x2048x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1x2048x128, .f32⟩
  | .local _ .vmem, ⟨6, _⟩ => ⟨S1x2048x128, .f32⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v26 : BitVec 32 := Scalar.addi c0_i32 c8_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v27 : BitVec 32 := Scalar.muli arg9 c256_i32
  v27
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v27 : BitVec 32 := Scalar.muli arg9 c256_i32
  let v28 : BitVec 32 := v27
  let v29 : Index := Scalar.indexCast v28
  let c0_21 : Index := 0#32
  ![v29.toNat, 0]
def k0_off2 (k0_t1 : Fin k0_t1_loop.trips) : Fin 3 → Nat :=
  let c0_26 : Index := 0#32
  let c0_i32 : BitVec 32 := 0#32
  let c1_i32 : BitVec 32 := 1#32
  let arg9 : BitVec 32 := Scf.iv c0_i32 c1_i32 k0_t1
  let c256_i32 : BitVec 32 := 256#32
  let v27 : BitVec 32 := Scalar.muli arg9 c256_i32
  let v28 : BitVec 32 := v27
  let v43 : Index := Scalar.indexCast v28
  let c0_27 : Index := 0#32
  ![0, v43.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024x128 : S_.BroadcastsInDim S1024x128 (![] : Fin 0 → Fin S1024x128.rank)
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  h_S256x128 : 0 < S256x128.numel
  reduces_S256x2048_S256 : S256x2048.Reduces [1] S256
  shapeCasts_S256_S256x1 : S256.ShapeCasts S256x1
  broadcasts_S256x1_S256x2048 : S256x1.Broadcasts S256x2048
  h_S1x256x128 : 0 < S1x256x128.numel
  shapeCasts_S1x256x128_S256x128 : S1x256x128.ShapeCasts S256x128
  shapeCasts_S256x128_S1x256x128 : S256x128.ShapeCasts S1x256x128
  dot_S2048x1024_S1024x128_S2048x128_1_0_0_1_n_n_wf : DotDims.WF S2048x1024 S1024x128 S2048x128 [1] [0] [0] [1] [] []
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x128.size a ≤ S2048x128.size a
  k0_off2_inb : ∀ k0_t1 : Fin k0_t1_loop.trips, ∀ a, (k0_off2 k0_t1) a + S1x256x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S8x2048x128.size a
  hwx0_4 : ∀ i : grid0.Coords, EltTy.bits .f32 = 32 ∨ (Rect.block (s := S8x2048x128) S1x2048x128.size (cc0_transform_4 i) (hinb0_4 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x128 : Shape := ⟨2, ![1024, 128]⟩
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x128_S8x2048x128_2_0_01_1_n_n_wf : DotDims.WF S8x2048x1024 S1024x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Spec.lean ====
/-
  Single-head attention over the extended reals, entry by entry.

  For one batch b the three projections are  q = x[b] · Wq,  k = x[b] · Wk,  v = x[b] · Wv  (sums over the 1024 input
  channels).  A score row is  s[t, j] = Σ_h q[t, h] · k[j, h]  scaled by a constant σ; the row's softmax is
  p[t, j] = exp (s[t, j] − max_j s[t, j]) / Σ_j exp (s[t, j] − max_j s[t, j]),  and the output entry is
  o[t, h] = Σ_j p[t, j] · v[j, h].

  The scale may be applied to the finished score,  (Σ_h q · k) · σ,  or folded into the query weights beforehand,
  Σ_h (Σ_c x · (Wq · σ)) · k.  Over real numbers the two agree, by distributing σ over both finite sums; over the
  extended reals that step needs every factor to be finite, which is why the law is stated for real-valued arrays.
-/
import Idealize.ShloMosaic.PureOps.Ideal.Laws
import Idealize.ShloMosaic.Lib.ValueIdx

noncomputable section

namespace Cert.Attention

open Idealize.ShloMosaic Idealize.ShloMosaic.ValueIdx

/-! ## One softmax row -/

variable {n : Nat}

/-- The value the row maximum is folded from: the f32 pattern of −∞. -/
abbrev negInf : EReal := Ideal.ofBits .f32 0xFF800000#32

/-- The maximum of a score row, as the fold of max from −∞. -/
def rowMax (s : Fin n → EReal) : EReal := (Finset.univ : Finset (Fin n)).fold max negInf s

/-- The exponential of an entry shifted by the row's maximum. -/
def pexp (s : Fin n → EReal) (j : Fin n) : EReal := Ideal.exp (s j - rowMax s)

/-- The softmax denominator: the sum of the shifted exponentials. -/
def denom (s : Fin n → EReal) : EReal := ∑ j, pexp s j

/-- The softmax weight of entry j. -/
def prob (s : Fin n → EReal) (j : Fin n) : EReal := Ideal.div (pexp s j) (denom s)

/-- One output entry: the softmax weights of the score row against a column of values. -/
def attnOut (s v : Fin n → EReal) : EReal := ∑ j, prob s j * v j

/-! ## The arrays -/

abbrev SX : Shape := ⟨3, ![8, 2048, 1024]⟩
abbrev SW : Shape := ⟨2, ![1024, 128]⟩
abbrev SO : Shape := ⟨3, ![8, 2048, 128]⟩

/-- A projection entry: row t of batch b against column h of the weights. -/
def proj (x : SX.Idx → EReal) (w : SW.Idx → EReal) (b : Fin 8) (t : Fin 2048) (h : Fin 128) : EReal :=
  ∑ c : Fin 1024, x (ix3 b t c) * w (ix2 c h)

/-- The score with the scale applied to the finished inner product. -/
def scoreAfter (x : SX.Idx → EReal) (wq wk : SW.Idx → EReal) (σ : EReal) (b : Fin 8) (t j : Fin 2048) : EReal :=
  (∑ h : Fin 128, proj x wq b t h * proj x wk b j h) * σ

/-- The score with the scale folded into the query weights. -/
def scoreFolded (x : SX.Idx → EReal) (wq wk : SW.Idx → EReal) (σ : EReal) (b : Fin 8) (t j : Fin 2048) : EReal :=
  ∑ h : Fin 128, proj x (fun i => wq i * σ) b t h * proj x wk b j h

/-- The attention output at (b, t, h) for a given score. -/
def out (score : Fin 8 → Fin 2048 → Fin 2048 → EReal) (x : SX.Idx → EReal) (wv : SW.Idx → EReal)
    (b : Fin 8) (t : Fin 2048) (h : Fin 128) : EReal :=
  attnOut (score b t) (fun j => proj x wv b j h)

/-! ## The law -/

/-- A finite sum of reals, taken in the extended reals, is the real sum. -/
theorem coe_sum {κ : Type*} (s : Finset κ) (f : κ → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, EReal.coe_add, ih]

/-- Over real-valued arrays and a real scale, folding the scale into the query weights gives the same score as scaling
    the finished inner product: σ distributes over the sum over channels and then over the sum over h. -/
theorem scoreFolded_eq_scoreAfter (x : SX.Idx → EReal) (wq wk : SW.Idx → EReal) (σ : EReal)
    (hx : ∀ i, ∃ r : ℝ, x i = (r : EReal)) (hq : ∀ i, ∃ r : ℝ, wq i = (r : EReal))
    (hk : ∀ i, ∃ r : ℝ, wk i = (r : EReal)) (hσ : ∃ r : ℝ, σ = (r : EReal)) (b : Fin 8) (t j : Fin 2048) :
    scoreFolded x wq wk σ b t j = scoreAfter x wq wk σ b t j := by
  choose xr hxr using hx
  choose qr hqr using hq
  choose kr hkr using hk
  obtain ⟨c, rfl⟩ := hσ
  obtain rfl : x = fun i => ((xr i : ℝ) : EReal) := funext hxr
  obtain rfl : wq = fun i => ((qr i : ℝ) : EReal) := funext hqr
  obtain rfl : wk = fun i => ((kr i : ℝ) : EReal) := funext hkr
  unfold scoreFolded scoreAfter proj
  simp only [← EReal.coe_mul, coe_sum]
  refine congrArg _ ?_
  rw [Finset.sum_mul]
  refine Finset.sum_congr rfl fun h _ => ?_
  have e : (∑ a : Fin 1024, xr (ix3 b t a) * (qr (ix2 a h) * c)) = (∑ a : Fin 1024, xr (ix3 b t a) * qr (ix2 a h)) * c := by
    rw [Finset.sum_mul]; exact Finset.sum_congr rfl fun a _ => by ring
  rw [e]; ring

end Cert.Attention

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibMatmulNT.lean ====
/-
  A reusable lemma: a matrix product against a transposed right operand, read at an entry.

  A `tpu.matmul` of an [M, K] operand by an [N, K] operand — contracting axis 1 of the left with axis 1 of the right, no
  batch axes — accumulated into the zero splat, read over the extended reals at the output entry (p, q), is the inner
  product of row p of the left operand with row q of the right one:

      (L · Rᵀ)[p, q] = Σ_{k < K} L[p, k] · R[q, k].

  Generic in the extents M, K, N and in the operands' float formats; the dimension record may be any one that equals the
  library's M×K by N×K record (a printed program's own record does, by unfolding).
-/
import Idealize.ShloMosaic.PureOps.Ideal.Laws
import Idealize.ShloMosaic.Lib.ValueIdx

noncomputable section

namespace Cert.MatmulNT

open Idealize.ShloMosaic Idealize.ShloMosaic.ValueIdx

variable {M K N : Nat} {φ₁ φ₂ : FTy}

/-- The left operand's index at output (p, q) and contraction position k is (p, k). -/
theorem lhsIdx_transposedRhs (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => rfl
    | ⟨1, _⟩ =>
      exact ((DotDims.transposedRhs M K N).lhsIdx_val_of_single rfl (ix2 p q) _).trans
        (contrEquiv1_symm_val (DotDims.transposedRhs M K N) K rfl rfl k))

/-- The right operand's index at output (p, q) and contraction position k is (q, k). -/
theorem rhsIdx_transposedRhs (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => rfl
    | ⟨1, _⟩ =>
      exact ((DotDims.transposedRhs M K N).rhsIdx_val_of_single rfl (ix2 p q) _).trans
        (contrEquiv1_symm_val (DotDims.transposedRhs M K N) K rfl rfl k))

/-- A matrix product against a transposed right operand, into zeros, at entry (p, q): the inner product of row p of the
    left operand with row q of the right one. -/
theorem matmul_zero_apply (D : DotDims ⟨2, ![M, K]⟩ ⟨2, ![N, K]⟩ ⟨2, ![M, N]⟩) (hD : D = DotDims.transposedRhs M K N)
    (prec : Option ContractPrecision) (lhs : FVec Ideal ⟨2, ![M, K]⟩ φ₁) (rhs : FVec Ideal ⟨2, ![N, K]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

end Cert.MatmulNT

end
-- ==== Proof.LibKeepdims.lean ====
/-
  Reusable lemmas: a row reduction of an [a, b] array kept as a column and broadcast back along the row.

  jnp's `max(s, axis=-1, keepdims=True)` and `sum(…, axis=-1, keepdims=True)` inside a kernel print as a lane reduction
  [a, b] → [a], a shape cast [a] → [a, 1], and a broadcast [a, 1] → [a, b].  Read over the extended reals at (r, j) the
  result is the fold of max (from the accumulator's value) or the sum over row r, whatever j:

      bmax s (r, j) = max_k s (r, k),      bsum s (r, j) = Σ_k s (r, k).

  The two layout steps are read by coordinates: an [a] vector cast to an [a, 1] column reads entry i at (i, 0), and an
  [a, 1] column broadcast to [a, b] reads the column's entry p at (p, c).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- An [a] vector cast to an [a, 1] column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r of an [a, b] array reduced along its rows, with the row position k put back, is (r, k). -/
theorem lift_row {a b : ℕ} (hr : (⟨2, ![a, b]⟩ : Shape).Reduces [1] ⟨1, ![a]⟩) (r : Fin a) (k : Fin b) :
    hr.lift (ix1 r) k = ix2 r k :=
  funext fun c => Fin.ext (by
    match c with
    | ⟨0, _⟩ => rfl
    | ⟨1, _⟩ => rfl)

/-- The row maximum kept as a column and broadcast back: at (r, j) the fold of max, from the accumulator's value, over
    row r. -/
theorem rowMax_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .maximumf [1] ⟨1, ![a]⟩ s acc hr hφ hacc) hsc) hb (ix2 r j)
      = (Finset.univ : Finset (Fin b)).fold max (Ideal.ofBits .f32 acc) (fun k => s (ix2 r k)) := by
  rw [broadcastTo_a1_ab_apply, shapeCast_a_a1_apply, Ideal.multiReduction_maximumf_single]
  refine congrArg (fun f => (Finset.univ : Finset (Fin b)).fold max (Ideal.ofBits .f32 acc) f) ?_
  exact funext fun k => congrArg s (lift_row hr r k)

/-- The row sum kept as a column and broadcast back: at (r, j) the sum over row r. -/
theorem rowSum_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .add [1] ⟨1, ![a]⟩ s acc hr hφ hacc) hsc) hb (ix2 r j)
      = ∑ k : Fin b, s (ix2 r k) := by
  rw [broadcastTo_a1_ab_apply, shapeCast_a_a1_apply, Ideal.multiReduction_add_single]
  exact Finset.sum_congr rfl fun k _ => congrArg s (lift_row hr r k)

end Cert.Keepdims

end
-- ==== Proof.KernelPayload.lean ====
/-
  The kernel body's arithmetic, read entry by entry over the extended reals.

  Per batch the body computes three projections of the [2048, 1024] input block against a [1024, 128] weight block
  (sums over the 1024 channels), and then, for each tile of 256 query rows, the score tile  s = q_tile · kᵀ
  ([256, 2048], sums over the 128 head channels), its row softmax  p = exp (s − rowmax s) / rowsum (exp (s − rowmax s)),
  and the output tile  o = p · v  ([256, 128], sums over the 2048 keys).  Changes of float format are the identity
  here, and a matrix product into a zero accumulator is the plain sum of products.
-/
import proofs.«105880_j20280835571855_2_alg».proof.Proof.Gen.KernelIdeal.Skeleton
import proofs.«105880_j20280835571855_2_alg».proof.Proof.Spec
import proofs.«105880_j20280835571855_2_alg».proof.Proof.LibMatmulNN
import proofs.«105880_j20280835571855_2_alg».proof.Proof.LibMatmulNT
import proofs.«105880_j20280835571855_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Attention

/-! ## The projections -/

/-- The input block viewed as a [2048, 1024] matrix: entry (t, c) is the block at (0, t, c). -/
theorem rows_at (x0 : Vec Ideal S1x2048x1024 .f32) (t : Fin 2048) (c : Fin 1024) :
    k0_pay1 (F := Ideal) x0 (ix2 t c) = x0 (ix3 (0 : Fin 1) t c) := by
  unfold k0_pay1
  exact shapeCast_1ab_ab_apply x0 shapeCasts_S1x2048x1024_S2048x1024 t c

/-- A projection of the input block against a weight block, at (t, h): the sum over the channels. -/
theorem proj_at (x0 : Vec Ideal S1x2048x1024 .f32) (w : Vec Ideal S1024x128 .bf16) (t : Fin 2048) (h : Fin 128) :
    matmul (φ₁ := .bf16) (φ₂ := .bf16) dot_S2048x1024_S1024x128_S2048x128_1_0_0_1_n_n none (k0_pay1 (F := Ideal) x0) w (constant S2048x128 .f32 0x00000000#32) (ix2 t h)
      = ∑ c : Fin 1024, x0 (ix3 (0 : Fin 1) t c) * w (ix2 c h) := by
  refine (Cert.MatmulNN.matmul_zero_apply (φ₁ := .bf16) (φ₂ := .bf16) dot_S2048x1024_S1024x128_S2048x128_1_0_0_1_n_n rfl none (k0_pay1 (F := Ideal) x0) w t h).trans ?_
  exact Finset.sum_congr rfl fun c _ => by rw [rows_at]

/-- The query projection stored to the first scratch buffer. -/
theorem q_at (x0 : Vec Ideal S1x2048x1024 .f32) (w : Vec Ideal S1024x128 .bf16) (t : Fin 2048) (h : Fin 128) :
    k0_pay2 (F := Ideal) x0 w (ix2 t h) = ∑ c : Fin 1024, x0 (ix3 (0 : Fin 1) t c) * w (ix2 c h) := by
  unfold k0_pay2
  rw [shapeCast_self, shapeCast_self]
  exact proj_at x0 w t h

/-- The key projection stored to the second scratch buffer. -/
theorem k_at (x0 : Vec Ideal S1x2048x1024 .f32) (w : Vec Ideal S1024x128 .bf16) (t : Fin 2048) (h : Fin 128) :
    k0_pay3 (F := Ideal) x0 w (ix2 t h) = ∑ c : Fin 1024, x0 (ix3 (0 : Fin 1) t c) * w (ix2 c h) := by
  unfold k0_pay3
  rw [shapeCast_self, shapeCast_self]
  exact proj_at x0 w t h

/-- The value projection stored to the third scratch buffer. -/
theorem v_at (x0 : Vec Ideal S1x2048x1024 .f32) (w : Vec Ideal S1024x128 .bf16) (t : Fin 2048) (h : Fin 128) :
    k0_pay4 (F := Ideal) x0 w (ix2 t h) = ∑ c : Fin 1024, x0 (ix3 (0 : Fin 1) t c) * w (ix2 c h) := by
  unfold k0_pay4
  rw [shapeCast_self, shapeCast_self]
  exact proj_at x0 w t h

/-! ## One tile of query rows -/

/-- The score tile: the query tile against every key. -/
def scoreTile (q : Vec Ideal S256x128 .bf16) (k : Vec Ideal S2048x128 .bf16) : FVec Ideal S256x2048 .f32 :=
  matmul (φ₁ := .bf16) (φ₂ := .bf16) dot_S256x128_S2048x128_S256x2048_1_1_0_0_n_n none q k (constant S256x2048 .f32 0x00000000#32)

theorem scoreTile_at (q : Vec Ideal S256x128 .bf16) (k : Vec Ideal S2048x128 .bf16) (r : Fin 256) (j : Fin 2048) :
    scoreTile q k (ix2 r j) = ∑ d : Fin 128, q (ix2 r d) * k (ix2 j d) := by
  unfold scoreTile
  exact Cert.MatmulNT.matmul_zero_apply (φ₁ := .bf16) (φ₂ := .bf16) dot_S256x128_S2048x128_S256x2048_1_1_0_0_n_n rfl none q k r j

/-- The row maximum of a tile, broadcast back along the row. -/
def maxTile (s : FVec Ideal S256x2048 .f32) : FVec Ideal S256x2048 .f32 :=
  broadcastTo S256x2048 (shapeCast S256x1 (multiReduction .maximumf [1] S256 s 0xFF800000#32 reduces_S256x2048_S256 (.inl rfl) rfl)
    shapeCasts_S256_S256x1) broadcasts_S256x1_S256x2048

theorem maxTile_at (s : FVec Ideal S256x2048 .f32) (r : Fin 256) (j : Fin 2048) :
    maxTile s (ix2 r j) = rowMax (fun k : Fin 2048 => s (ix2 r k)) :=
  Cert.Keepdims.rowMax_keepdims s _ reduces_S256x2048_S256 _ _ shapeCasts_S256_S256x1 broadcasts_S256x1_S256x2048 r j

/-- The shifted exponentials of a tile. -/
def expTile (s : FVec Ideal S256x2048 .f32) : FVec Ideal S256x2048 .f32 := exp (subf s (maxTile s))

theorem expTile_at (s : FVec Ideal S256x2048 .f32) (r : Fin 256) (j : Fin 2048) :
    expTile s (ix2 r j) = pexp (fun k : Fin 2048 => s (ix2 r k)) j := by
  show Ideal.exp (s (ix2 r j) - maxTile s (ix2 r j)) = _
  rw [maxTile_at]; rfl

/-- The row sum of a tile, broadcast back along the row. -/
def sumTile (e : FVec Ideal S256x2048 .f32) : FVec Ideal S256x2048 .f32 :=
  broadcastTo S256x2048 (shapeCast S256x1 (multiReduction .add [1] S256 e 0x00000000#32 reduces_S256x2048_S256 (.inl rfl) rfl)
    shapeCasts_S256_S256x1) broadcasts_S256x1_S256x2048

theorem sumTile_at (e : FVec Ideal S256x2048 .f32) (r : Fin 256) (j : Fin 2048) :
    sumTile e (ix2 r j) = ∑ k : Fin 2048, e (ix2 r k) :=
  Cert.Keepdims.rowSum_keepdims e _ reduces_S256x2048_S256 _ _ shapeCasts_S256_S256x1 broadcasts_S256x1_S256x2048 r j

/-- The softmax of a tile, row by row. -/
def softTile (s : FVec Ideal S256x2048 .f32) : FVec Ideal S256x2048 .f32 := divf (expTile s) (sumTile (expTile s))

theorem softTile_at (s : FVec Ideal S256x2048 .f32) (r : Fin 256) (j : Fin 2048) :
    softTile s (ix2 r j) = prob (fun k : Fin 2048 => s (ix2 r k)) j := by
  show Ideal.div (expTile s (ix2 r j)) (sumTile (expTile s) (ix2 r j)) = _
  rw [sumTile_at, expTile_at]
  unfold prob denom
  exact congrArg (Ideal.div _) (Finset.sum_congr rfl fun k _ => expTile_at s r k)

/-- The tile's payload is the softmax of the score tile against the values, stored as a [1, 256, 128] block. -/
theorem pay5_eq (v24 v25 : Vec Ideal S2048x128 .bf16) (v30 : Vec Ideal S256x128 .bf16) :
    k0_pay5 (F := Ideal) v24 v25 v30
      = shapeCast S1x256x128 (matmul (φ₁ := .bf16) (φ₂ := .bf16) dot_S256x2048_S2048x128_S256x128_1_0_0_1_n_n none
          (truncf .bf16 (softTile (scoreTile v30 v24)) bitsLt_bf16_f32) v25 (constant S256x128 .f32 0x00000000#32))
          shapeCasts_S256x128_S1x256x128 := by
  unfold k0_pay5 softTile sumTile expTile maxTile scoreTile
  rfl

/-- One output entry of a tile: the softmax weights of the query row's scores against the value column. -/
theorem tile_at (v24 v25 : Vec Ideal S2048x128 .bf16) (v30 : Vec Ideal S256x128 .bf16) (u : Fin 1) (r : Fin 256) (h : Fin 128) :
    k0_pay5 (F := Ideal) v24 v25 v30 (ix3 u r h)
      = attnOut (fun j : Fin 2048 => ∑ d : Fin 128, v30 (ix2 r d) * v24 (ix2 j d)) (fun j : Fin 2048 => v25 (ix2 j h)) := by
  rw [pay5_eq]
  refine (shapeCast_ab_1ab_apply _ shapeCasts_S256x128_S1x256x128 u r h).trans ?_
  refine (Cert.MatmulNN.matmul_zero_apply (φ₁ := .bf16) (φ₂ := .bf16) dot_S256x2048_S2048x128_S256x128_1_0_0_1_n_n rfl none _ v25 r h).trans ?_
  unfold attnOut
  refine Finset.sum_congr rfl fun j _ => congrArg (· * v25 (ix2 j h)) ?_
  show softTile (scoreTile v30 v24) (ix2 r j) = _
  rw [softTile_at]
  exact congrArg (fun s => prob s j) (funext fun k => scoreTile_at v30 v24 r k)

end Cert.KernelIdeal.Payload

end
-- ==== Proof.KernelBlock.lean ====
/-
  The output block one grid point leaves, entry by entry.

  At a grid point the body first stores the three projections of the point's input block into its scratch buffers and
  reads the key and value projections back; then a loop of eight trips takes the query rows 256 at a time: trip k reads
  rows [256 k, 256 k + 256) of the query scratch, computes that tile's softmax attention against all keys and values, and
  stores it into rows [256 k, 256 k + 256) of the output block.  Every store's payload is therefore the same function of
  the output index: row r of the block is the attention of query row r, whichever trip wrote it.  The eight stores tile
  the block, so the block is that function everywhere.
-/
import proofs.«105880_j20280835571855_2_alg».proof.Proof.Gen.KernelIdeal.Frame
import proofs.«105880_j20280835571855_2_alg».proof.Proof.KernelPayload
import Idealize.ShloMosaic.Lib.Pipeline.Value

set_option maxRecDepth 16384

noncomputable section

namespace Cert.KernelIdeal.Block

open Cert.KernelIdeal Cert.KernelIdeal.Gen Cert.Attention
open Idealize.ShloMosaic Idealize.ShloMosaic.TcCoe Idealize.ShloMosaic.ValueIdx
open Idealize.SL Idealize.SL.Sem

/-- Row r of the block from the three projections: the attention of query row r at head channel h. -/
def rowFn (q k v : S2048x128.Idx → EReal) (y : S1x2048x128.Idx) : EReal :=
  attnOut (fun j : Fin 2048 => ∑ d : Fin 128, q (ix2 (⟨(y 1).val, (y 1).isLt⟩ : Fin 2048) d) * k (ix2 j d))
    (fun j : Fin 2048 => v (ix2 j (⟨(y 2).val, (y 2).isLt⟩ : Fin 128)))

theorem zeros2 : (![0, 0] : Fin 2 → ℕ) = fun _ => 0 :=
  funext fun a => by match a with | ⟨0, _⟩ => rfl | ⟨1, _⟩ => rfl
theorem zeros3 : (![0, 0, 0] : Fin 3 → ℕ) = fun _ => 0 :=
  funext fun a => by match a with | ⟨0, _⟩ => rfl | ⟨1, _⟩ => rfl | ⟨2, _⟩ => rfl

/-! ## One trip's store -/

/-- The piece trip k stores agrees with the row function of the query scratch's contents and the loaded keys and values:
    the tile's local row r is block row 256 k + r, and the query tile it loaded is rows 256 k + r of the scratch. -/
theorem trip_piece (𝒱 : Variants) (c : Dev nD) (bd : Option 𝒱.V) (i : grid0.Coords) (arg1 : Memref sig .tc .vmem S1x2048x1024 .f32) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x2048x128 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole)
    (v24 v25 : Vec Ideal S2048x128 .bf16) (X_arg6 : BufTy.Contents (Elt Ideal) arg6.view.ty) (k : Fin k0_t1_loop.trips)
    (p : View.Piece (Elt Ideal) S1x2048x128 .f32)
    (hp : p ∈ tripL_k0_t1 (F := Ideal) 𝒱 c bd i arg1 harg1 arg2 harg2 arg3 harg3 arg4 harg4 arg5 harg5 arg6 harg6 arg7 harg7 arg8 harg8 v24 v25 X_arg6 k) (x : p.1.shape.Idx) :
    p.2 x = rowFn (arg6.view.read (Elt Ideal) X_arg6) v24 v25 (p.1.emb x) := by
  unfold tripL_k0_t1 trip_k0_t1 at hp
  dsimp only at hp
  obtain rfl := List.mem_singleton.mp hp
  obtain ⟨u, r, h, rfl⟩ : ∃ (u : Fin 1) (r : Fin 256) (h : Fin 128), x = ix3 u r h := ⟨x 0, x 1, x 2, eq_ix3 x⟩
  refine (Payload.tile_at v24 v25 _ u r h).trans ?_
  unfold rowFn
  refine congr (congrArg attnOut (funext fun j => Finset.sum_congr rfl fun d _ => congrArg (· * v24 (ix2 j d)) ?_))
    (funext fun j => congrArg (fun hh => v25 (ix2 j hh)) (Fin.ext ?_))
  · rw [View.readAt_apply]
    refine congrArg _ (funext fun a => Fin.ext ?_)
    match a with
    | ⟨0, _⟩ =>
      show k0_off1 k 0 + 1 * r.val = k0_off2 k 1 + 1 * r.val
      rw [k0_off1_eq, k0_off2_eq]; rfl
    | ⟨1, _⟩ =>
      show k0_off1 k 1 + 1 * d.val = d.val
      rw [k0_off1_eq]; show 0 + 1 * d.val = d.val; omega
  · show h.val = k0_off2 k 2 + 1 * h.val
    rw [k0_off2_eq]; show h.val = 0 + 1 * h.val; omega

/-! ## All the trips -/

/-- Every piece of the trips before n agrees with the row function: by induction on n, the newest trip's piece by
    `trip_piece`. -/
theorem pieces_before (𝒱 : Variants) (c : Dev nD) (bd : Option 𝒱.V) (i : grid0.Coords) (arg1 : Memref sig .tc .vmem S1x2048x1024 .f32) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x2048x128 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole)
    (v24 v25 : Vec Ideal S2048x128 .bf16) (X_arg6 : BufTy.Contents (Elt Ideal) arg6.view.ty) :
    ∀ (n : ℕ) (p : View.Piece (Elt Ideal) S1x2048x128 .f32),
      p ∈ pb_k0_t1 (F := Ideal) 𝒱 c bd i arg1 harg1 arg2 harg2 arg3 harg3 arg4 harg4 arg5 harg5 arg6 harg6 arg7 harg7 arg8 harg8 v24 v25 X_arg6 n →
      ∀ x : p.1.shape.Idx, p.2 x = rowFn (arg6.view.read (Elt Ideal) X_arg6) v24 v25 (p.1.emb x)
  | 0, p, hp, _ => by
    rw [pb_k0_t1.eq_1] at hp
    exact absurd hp List.not_mem_nil
  | n + 1, p, hp, x => by
    rw [pb_k0_t1.eq_2] at hp
    unfold pb_k0_t1Step at hp
    split at hp
    · rcases List.mem_append.mp hp with h | h
      · exact trip_piece 𝒱 c bd i arg1 harg1 arg2 harg2 arg3 harg3 arg4 harg4 arg5 harg5 arg6 harg6 arg7 harg7 arg8 harg8 v24 v25 X_arg6 _ p h x
      · exact pieces_before 𝒱 c bd i arg1 harg1 arg2 harg2 arg3 harg3 arg4 harg4 arg5 harg5 arg6 harg6 arg7 harg7 arg8 harg8 v24 v25 X_arg6 n p h x
    · exact pieces_before 𝒱 c bd i arg1 harg1 arg2 harg2 arg3 harg3 arg4 harg4 arg5 harg5 arg6 harg6 arg7 harg7 arg8 harg8 v24 v25 X_arg6 n p hp x

/-! ## The scratch round trips -/

/-- The input block read back from a whole staging buffer through the whole-block rectangle. -/
theorem x_back (arg1 : Memref sig .tc .vmem S1x2048x1024 .f32) (harg1 : arg1.IsWhole) (x0 : Vec Ideal S1x2048x1024 .f32) :
    View.readAt (Elt Ideal) arg1.view
      (Rect.unit (s := S1x2048x1024) ![0, 0, 0] S1x2048x1024.size inb_S1x2048x1024_S1x2048x1024_0_0_0).toLoadRect (harg1.unread x0) = x0 := by
  rw [View.readAt_eq_ld, harg1.read_unread, View.ld_unit_zero (S := S1x2048x1024) zeros3]

/-- A weight block read back likewise. -/
theorem w_back (arg2 : Memref sig .tc .vmem S1024x128 .bf16) (harg2 : arg2.IsWhole) (x1 : Vec Ideal S1024x128 .bf16) :
    View.readAt (Elt Ideal) arg2.view
      (Rect.unit (s := S1024x128) ![0, 0] S1024x128.size inb_S1024x128_S1024x128_0_0).toLoadRect (harg2.unread x1) = x1 := by
  rw [View.readAt_eq_ld, harg2.read_unread, View.ld_unit_zero (S := S1024x128) zeros2]

/-- The query scratch after its one whole store holds the query projection. -/
theorem q_scratch (c : Dev nD) (arg1 : Memref sig .tc .vmem S1x2048x1024 .f32) (harg1 : arg1.IsWhole)
    (arg2 : Memref sig .tc .vmem S1024x128 .bf16) (harg2 : arg2.IsWhole) (arg6 : Memref sig .tc .vmem S2048x128 .bf16)
    (x0 : Vec Ideal S1x2048x1024 .f32) (x1 : Vec Ideal S1024x128 .bf16) :
    arg6.view.read (Elt Ideal) (arg6.view.writes (Elt Ideal) arg6.view.junk
        (kernelRun0_A.sl.HS0_1 (F := Ideal) c arg1 harg1 arg2 harg2 x0 x1)) = k0_pay2 (F := Ideal) x0 x1 := by
  rw [View.read_writes_junk_eq_canon]
  unfold kernelRun0_A.sl.HS0_1
  rw [View.canon_unit_zero zeros2, x_back, w_back]

/-- The keys loaded back from the second scratch are the key projection. -/
theorem k_scratch (c : Dev nD) (arg1 : Memref sig .tc .vmem S1x2048x1024 .f32) (harg1 : arg1.IsWhole)
    (arg3 : Memref sig .tc .vmem S1024x128 .bf16) (harg3 : arg3.IsWhole) (arg7 : Memref sig .tc .vmem S2048x128 .bf16)
    (x0 : Vec Ideal S1x2048x1024 .f32) (x2 : Vec Ideal S1024x128 .bf16) :
    kernelRun0_A.sl.v24 (F := Ideal) c arg1 harg1 arg3 harg3 arg7 x0 x2 = k0_pay3 (F := Ideal) x0 x2 := by
  unfold kernelRun0_A.sl.v24 kernelRun0_A.sl.HS1_1
  rw [View.readCov_unit_zero _ zeros2, x_back, w_back]

/-- The values loaded back from the third scratch are the value projection. -/
theorem v_scratch (c : Dev nD) (arg1 : Memref sig .tc .vmem S1x2048x1024 .f32) (harg1 : arg1.IsWhole)
    (arg4 : Memref sig .tc .vmem S1024x128 .bf16) (harg4 : arg4.IsWhole) (arg8 : Memref sig .tc .vmem S2048x128 .bf16)
    (x0 : Vec Ideal S1x2048x1024 .f32) (x3 : Vec Ideal S1024x128 .bf16) :
    kernelRun0_A.sl.v25 (F := Ideal) c arg1 harg1 arg4 harg4 arg8 x0 x3 = k0_pay4 (F := Ideal) x0 x3 := by
  unfold kernelRun0_A.sl.v25 kernelRun0_A.sl.HS2_1
  rw [View.readCov_unit_zero _ zeros2, x_back, w_back]

/-! ## The block -/

/-- What one grid point leaves in the output block, at any index: the row function of the three projections of the
    point's input blocks.  Every piece the run stored agrees with it, and the pieces cover the block. -/
theorem out_at (c : Dev nD) (i : grid0.Coords) (arg1 : Memref sig .tc .vmem S1x2048x1024 .f32) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x2048x128 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole)
    (x0 : Vec Ideal S1x2048x1024 .f32) (x1 x2 x3 : Vec Ideal S1024x128 .bf16) (y : S1x2048x128.Idx) :
    out0_A_4 (F := Ideal) c i arg1 harg1 arg2 harg2 arg3 harg3 arg4 harg4 arg5 harg5 arg6 harg6 arg7 harg7 arg8 harg8 x0 x1 x2 x3 y
      = rowFn (k0_pay2 (F := Ideal) x0 x1) (k0_pay3 (F := Ideal) x0 x2) (k0_pay4 (F := Ideal) x0 x3) y := by
  unfold out0_A_4
  rw [View.read_writes_junk_eq_canon]
  have hL : ∀ p ∈ (kernelRun0_A (F := Ideal) c i arg1 harg1 arg2 harg2 arg3 harg3 arg4 harg4 arg5 harg5 arg6 harg6 arg7 harg7 arg8 harg8 x0 x1 x2 x3).1, ∀ x : p.1.shape.Idx,
      p.2 x = rowFn (k0_pay2 (F := Ideal) x0 x1) (k0_pay3 (F := Ideal) x0 x2) (k0_pay4 (F := Ideal) x0 x3) (p.1.emb x) := by
    unfold kernelRun0_A
    dsimp only
    intro p hp x
    have hx := pieces_before Variants.none c none i arg1 harg1 arg2 harg2 arg3 harg3 arg4 harg4 arg5 harg5 arg6 harg6 arg7 harg7 arg8 harg8 _ _ _ _ p hp x
    rwa [q_scratch, k_scratch, v_scratch] at hx
  exact View.canon_apply_of_pieces _ _ hL y (cover0_A_4 c i arg1 harg1 arg2 harg2 arg3 harg3 arg4 harg4 arg5 harg5 arg6 harg6 arg7 harg7 arg8 harg8 x0 x1 x2 x3 y)

end Cert.KernelIdeal.Block

end
-- ==== Proof.KernelArray.lean ====
/-
  From one grid point's block to the whole output array.

  The grid has eight points, one per batch.  Point t stages batch t of the input (the [1, 2048, 1024] block at block
  index (t, 0, 0)) and the three whole weight arrays, and writes back the [1, 2048, 128] block at (t, 0, 0) of the
  output.  The weight arrays it stages were made on the host before the call: the query weights multiplied entry by
  entry by the scale constant, the key and value weights as given (a change of float format is the identity).  So the
  entry (b, t, h) of the output is the attention of query row t of batch b, with the scale folded into the query weights.
  The eight blocks tile the output, hence the whole array is that function.
-/
import proofs.«105880_j20280835571855_2_alg».proof.Proof.Gen.KernelIdeal.Value
import proofs.«105880_j20280835571855_2_alg».proof.Proof.KernelBlock
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Value Cert.Attention
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The scale the host folds into the query weights. -/
abbrev scale : EReal := Ideal.ofBits .f32 0x3DB504F3#32

/-! ## The arrays the region finds -/

/-- The four argument arrays on core c, as functions of their indices. -/
abbrev argX (c : Dev nD) : S8x2048x1024.Idx → EReal := m ((c : Thread nD τ).loc main_arg0)
abbrev argQ (c : Dev nD) : S1024x128.Idx → EReal := m ((c : Thread nD τ).loc main_arg1)
abbrev argK (c : Dev nD) : S1024x128.Idx → EReal := m ((c : Thread nD τ).loc main_arg2)
abbrev argV (c : Dev nD) : S1024x128.Idx → EReal := m ((c : Thread nD τ).loc main_arg3)

/-- The three weight arrays the region stages, as functions of their indices. -/
abbrev stagedQ (c : Dev nD) : S1024x128.Idx → EReal := V m c main_v2
abbrev stagedK (c : Dev nD) : S1024x128.Idx → EReal := V m c main_v3
abbrev stagedV (c : Dev nD) : S1024x128.Idx → EReal := V m c main_v4

/-- The staged query weights: the given ones times the scale, entry by entry. -/
theorem staged_q (c : Dev nD) (i : S1024x128.Idx) : stagedQ m c i = argQ m c i * scale := by
  have e : stagedQ m c
      = truncf (F := Ideal) .bf16 (mulf (F := Ideal) (argQ m c)
          (broadcastInDim S1024x128 ![] bcast_S_S1024x128 (constant (F := Ideal) S_ .f32 0x3DB504F3#32))) bitsLt_bf16_f32 := by
    dsimp only [stagedQ, argQ, Gen.V, Gen.hostOps0]; after_results
  rw [e]; rfl

/-- The staged key weights are the given ones. -/
theorem staged_k (c : Dev nD) (i : S1024x128.Idx) : stagedK m c i = argK m c i := by
  have e : stagedK m c = truncf (F := Ideal) .bf16 (argK m c) bitsLt_bf16_f32 := by
    dsimp only [stagedK, argK, Gen.V, Gen.hostOps0]; after_results
  rw [e]; rfl

/-- The staged value weights are the given ones. -/
theorem staged_v (c : Dev nD) (i : S1024x128.Idx) : stagedV m c i = argV m c i := by
  have e : stagedV m c = truncf (F := Ideal) .bf16 (argV m c) bitsLt_bf16_f32 := by
    dsimp only [stagedV, argV, Gen.V, Gen.hostOps0]; after_results
  rw [e]; rfl

/-! ## The whole-array function -/

/-- The output array as one function of the input and of the three weight arrays the region stages. -/
def kernelOut (a0 : S8x2048x1024.Idx → EReal) (w1 w2 w3 : S1024x128.Idx → EReal) : S8x2048x128.Idx → EReal := fun i =>
  out (fun b t j => ∑ d : Fin 128, proj a0 w1 b t d * proj a0 w2 b j d) a0 w3
    (⟨(i 0).val, (i 0).isLt⟩ : Fin 8) (⟨(i 1).val, (i 1).isLt⟩ : Fin 2048) (⟨(i 2).val, (i 2).isLt⟩ : Fin 128)

/-- The row function of a point's blocks, when the input block is batch b of the input array and the weight blocks are
    the weight arrays, is the whole-array function on batch b. -/
theorem rowFn_batch (x0 : Vec Ideal S1x2048x1024 .f32) (x1 x2 x3 : Vec Ideal S1024x128 .bf16)
    (a0 : S8x2048x1024.Idx → EReal) (w1 w2 w3 : S1024x128.Idx → EReal) (b : Fin 8)
    (h0 : ∀ (r : Fin 2048) (cc : Fin 1024), x0 (ix3 (0 : Fin 1) r cc) = a0 (ix3 b r cc))
    (h1 : ∀ i, x1 i = w1 i) (h2 : ∀ i, x2 i = w2 i) (h3 : ∀ i, x3 i = w3 i) (y : S1x2048x128.Idx)
    (t' : Fin 2048) (h' : Fin 128) (ht : (⟨(y 1).val, (y 1).isLt⟩ : Fin 2048) = t') (hh : (⟨(y 2).val, (y 2).isLt⟩ : Fin 128) = h') :
    Block.rowFn (k0_pay2 (F := Ideal) x0 x1) (k0_pay3 (F := Ideal) x0 x2) (k0_pay4 (F := Ideal) x0 x3) y
      = out (fun b t j => ∑ d : Fin 128, proj a0 w1 b t d * proj a0 w2 b j d) a0 w3 b t' h' := by
  subst ht hh
  unfold Block.rowFn out
  simp only [Payload.q_at, Payload.k_at, Payload.v_at, h0, h1, h2, h3]
  rfl

/-! ## One point's block -/

/-- The printed index maps over the grid: point t stages batch t of the input and of the output, and the weight arrays
    whole. -/
theorem index_facts : ∀ t : Fin cfg0.N,
    win0_4.index t (0 : Fin 3) = t.val ∧ win0_4.index t (1 : Fin 3) = 0 ∧ win0_4.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What point t writes back is block t of the whole-array function of the arrays the region finds. -/
theorem flushed_eq (c : Dev nD) (t : Fin cfg0.N) :
    (dats m 0 c).flushed 4 t = ((cfg0.win 4).blk t).view.read (Elt Ideal)
      (kernelOut (V m c main_arg0) (stagedQ m c) (stagedK m c) (stagedV m c)) := by
  rw [flushed4_A]
  funext j
  show out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) j
    = kernelOut (V m c main_arg0) (stagedQ m c) (stagedK m c) (stagedV m c) (((cfg0.win 4).blk t).view.emb j)
  obtain ⟨e0, e1, e2, f0, f1, f2, g0, g1, p0, p1, q0, q1⟩ := index_facts t
  have hj0 : (j 0).val < 1 := (j 0).isLt
  refine (Block.out_at c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) j).trans ?_
  refine rowFn_batch (iblk m c 0 t) (iblk m c 1 t) (iblk m c 2 t) (iblk m c 3 t)
    (V m c main_arg0) (stagedQ m c) (stagedK m c) (stagedV m c)
    (⟨((((cfg0.win 4).blk t).view.emb j) 0).val, ((((cfg0.win 4).blk t).view.emb j) 0).isLt⟩ : Fin 8) ?_ ?_ ?_ ?_ j
    (⟨((((cfg0.win 4).blk t).view.emb j) 1).val, ((((cfg0.win 4).blk t).view.emb j) 1).isLt⟩ : Fin 2048)
    (⟨((((cfg0.win 4).blk t).view.emb j) 2).val, ((((cfg0.win 4).blk t).view.emb j) 2).isLt⟩ : Fin 128) ?_ ?_
  · intro r cc
    show V m c main_arg0 (((cfg0.win 0).blk t).view.emb (ix3 (0 : Fin 1) r cc)) = _
    refine congrArg _ (funext fun a => Fin.ext ?_)
    match a with
    | ⟨0, _⟩ =>
      show win0_0.index t (0 : Fin 3) * 1 + 1 * 0 = win0_4.index t (0 : Fin 3) * 1 + 1 * (j 0).val
      omega
    | ⟨1, _⟩ =>
      show win0_0.index t (1 : Fin 3) * 2048 + 1 * r.val = r.val
      omega
    | ⟨2, _⟩ =>
      show win0_0.index t (2 : Fin 3) * 1024 + 1 * cc.val = cc.val
      omega
  · intro i
    show V m c main_v2 (((cfg0.win 1).blk t).view.emb i) = V m c main_v2 i
    refine congrArg _ (funext fun a => Fin.ext ?_)
    match a with
    | ⟨0, _⟩ => show win0_1.index t (0 : Fin 2) * 1024 + 1 * (i 0).val = (i 0).val; omega
    | ⟨1, _⟩ => show win0_1.index t (1 : Fin 2) * 128 + 1 * (i 1).val = (i 1).val; omega
  · intro i
    show V m c main_v3 (((cfg0.win 2).blk t).view.emb i) = V m c main_v3 i
    refine congrArg _ (funext fun a => Fin.ext ?_)
    match a with
    | ⟨0, _⟩ => show win0_2.index t (0 : Fin 2) * 1024 + 1 * (i 0).val = (i 0).val; omega
    | ⟨1, _⟩ => show win0_2.index t (1 : Fin 2) * 128 + 1 * (i 1).val = (i 1).val; omega
  · intro i
    show V m c main_v4 (((cfg0.win 3).blk t).view.emb i) = V m c main_v4 i
    refine congrArg _ (funext fun a => Fin.ext ?_)
    match a with
    | ⟨0, _⟩ => show win0_3.index t (0 : Fin 2) * 1024 + 1 * (i 0).val = (i 0).val; omega
    | ⟨1, _⟩ => show win0_3.index t (1 : Fin 2) * 128 + 1 * (i 1).val = (i 1).val; omega
  · refine Fin.ext ?_
    show (j 1).val = win0_4.index t (1 : Fin 3) * 2048 + 1 * (j 1).val
    omega
  · refine Fin.ext ?_
    show (j 2).val = win0_4.index t (2 : Fin 3) * 128 + 1 * (j 2).val
    omega

/-! ## The cover, and the whole array -/

/-- An index of the output is in point t's block iff each coordinate is in the block's range on its axis. -/
theorem mem_blk (t : Fin cfg0.N) (i : S8x2048x128.Idx) :
    i ∈ ((cfg0.win 4).blk t).view.set ↔ ∀ a : Fin 3, win0_4.index t a * S1x2048x128.size a ≤ (i a).val
      ∧ (i a).val < win0_4.index t a * S1x2048x128.size a + S1x2048x128.size a := by
  show i ∈ ((View.whole main_v5).slice (win0_4.rect t)).set ↔ _
  rw [View.set_slice_whole, Rect.mem_set_unit]
  exact Iff.rfl

/-- Every block index of the output is some point's: batch b is point b's. -/
theorem index_onto : ∀ b : Fin 8, ∃ t : Fin cfg0.N, win0_4.index t = ![b.val, 0, 0] :=
  (by decide +kernel : ∀ b : Fin 8, ∃ t : Fin grid0.N, win0_4.index t = ![b.val, 0, 0])

/-- Every index of the output lies in the block of the point of its batch. -/
theorem covered (i : S8x2048x128.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 128 := (i 2).isLt
  obtain ⟨t, ht⟩ := index_onto ⟨(i 0).val, hi0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 128 ≤ (i 2).val ∧ (i 2).val < win0_4.index t (2 : Fin 3) * 128 + 128; omega

/-- The whole-array function read in the argument arrays: the scale folded into the query weights. -/
theorem kernelOut_staged (c : Dev nD) :
    kernelOut (V m c main_arg0) (stagedQ m c) (stagedK m c) (stagedV m c)
      = fun i => out (scoreFolded (argX m c) (argQ m c) (argK m c) scale) (argX m c) (argV m c)
          (⟨(i 0).val, (i 0).isLt⟩ : Fin 8) (⟨(i 1).val, (i 1).isLt⟩ : Fin 2048) (⟨(i 2).val, (i 2).isLt⟩ : Fin 128) := by
  have eq : stagedQ m c = fun i => argQ m c i * scale := funext (staged_q m c)
  have ek : stagedK m c = argK m c := funext (staged_k m c)
  have ev : stagedV m c = argV m c := funext (staged_v m c)
  have ex : (V m c main_arg0 : S8x2048x1024.Idx → EReal) = argX m c := V_main_arg0 m c
  rw [eq, ek, ev, ex]
  rfl

/-- The output array after the run. -/
theorem final (c : Dev nD) :
    (dats m 0 c).arrAt 4 cfg0.N
      = fun i => out (scoreFolded (argX m c) (argQ m c) (argK m c) scale) (argX m c) (argV m c)
          (⟨(i 0).val, (i 0).isLt⟩ : Fin 8) (⟨(i 1).val, (i 1).isLt⟩ : Fin 2048) (⟨(i 2).val, (i 2).isLt⟩ : Fin 128) :=
  ((dats m 0 c).arrAt_eq_of_cover 4 _ (fun t _ => flushed_eq m c t) covered).trans (kernelOut_staged m c)

/-- The kernel's run with its result named: every weakly fair execution terminates with the output array at the
    attention function of the argument arrays, the arguments unchanged. -/
theorem run : θ_run defs (onTc (τ := τ) (main (F := Ideal))) ⟨m, fun _ => 0, ρ⟩ fun r => ∀ c : Dev nD,
      r.2.mem ((c : Thread nD τ).loc main_v5)
        = (fun i => out (scoreFolded (argX m c) (argQ m c) (argK m c) scale) (argX m c) (argV m c)
            (⟨(i 0).val, (i 0).isLt⟩ : Fin 8) (⟨(i 1).val, (i 1).isLt⟩ : Fin 2048) (⟨(i 2).val, (i 2).isLt⟩ : Fin 128))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefIsSpec.lean ====
/-
  The reference program computes single-head attention as a sequence of whole-array stages.  This module reads every
  stage at one entry and identifies it with the entry-wise specification:

    * the three projections are sums over the 1024 input channels;
    * the score is the inner product of a query row and a key row over the 128 head channels, times the scale;
    * the row maximum is the fold of max over the 2048 keys from −∞, and taking the maximum with −∞ once more
      changes nothing because −∞ is the least extended real;
    * the shifted exponentials, their sum (the initial value of the sum is 0), the quotient;
    * the output entry is the sum over keys of the softmax weight times the value entry.

  Every index function of a stage is identified with explicit coordinates (b, t, ·), coordinate by coordinate.
-/
import proofs.«105880_j20280835571855_2_alg».proof.Proof.Gen.ReferenceIdeal.Read
import proofs.«105880_j20280835571855_2_alg».proof.Proof.Spec

noncomputable section

namespace Cert.ReferenceIdeal.RefValue

open Cert.ReferenceIdeal Cert.ReferenceIdeal.Gen Cert.ReferenceIdeal.Read Cert.Attention
open Idealize.ShloMosaic Idealize.ShloMosaic.ValueIdx

/-- The activations: one extended real per (batch, position, input channel). -/
abbrev XT : Type := (⟨S8x2048x1024, .f32⟩ : BufTy).Contents (Elt Ideal)
/-- A weight matrix: one extended real per (input channel, head channel). -/
abbrev WT : Type := (⟨S1024x128, .f32⟩ : BufTy).Contents (Elt Ideal)

/-- The score scale, 2^(-7/2) rounded to f32. -/
abbrev scale : EReal := Ideal.ofBits .f32 0x3DB504F3#32

/-! ## The projections -/

/-- The query projection at (b, t, h) is the sum over input channels. -/
theorem v0_at (x0 : XT) (x1 : WT) (b : Fin 8) (t : Fin 2048) (h : Fin 128) :
    val_main_v0 (F := Ideal) x0 x1 (ix3 b t h) = proj x0 x1 b t h := by
  rw [val_main_v0_apply]
  unfold proj
  refine Finset.sum_congr rfl fun c _ => ?_
  have el : lidx_main_v0 (ix3 b t h) c = ix3 b t c :=
    funext fun a => Fin.ext (by match a with | ⟨0, _⟩ => rfl | ⟨1, _⟩ => rfl | ⟨2, _⟩ => rfl)
  have er : ridx_main_v0 (ix3 b t h) c = ix2 c h :=
    funext fun a => Fin.ext (by match a with | ⟨0, _⟩ => rfl | ⟨1, _⟩ => rfl)
  rw [el, er]

/-- The key projection at (b, t, h). -/
theorem v1_at (x0 : XT) (x2 : WT) (b : Fin 8) (t : Fin 2048) (h : Fin 128) :
    val_main_v1 (F := Ideal) x0 x2 (ix3 b t h) = proj x0 x2 b t h := by
  rw [val_main_v1_apply]
  unfold proj
  refine Finset.sum_congr rfl fun c _ => ?_
  have el : lidx_main_v1 (ix3 b t h) c = ix3 b t c :=
    funext fun a => Fin.ext (by match a with | ⟨0, _⟩ => rfl | ⟨1, _⟩ => rfl | ⟨2, _⟩ => rfl)
  have er : ridx_main_v1 (ix3 b t h) c = ix2 c h :=
    funext fun a => Fin.ext (by match a with | ⟨0, _⟩ => rfl | ⟨1, _⟩ => rfl)
  rw [el, er]

/-- The value projection at (b, t, h). -/
theorem v2_at (x0 : XT) (x3 : WT) (b : Fin 8) (t : Fin 2048) (h : Fin 128) :
    val_main_v2 (F := Ideal) x0 x3 (ix3 b t h) = proj x0 x3 b t h := by
  rw [val_main_v2_apply]
  unfold proj
  refine Finset.sum_congr rfl fun c _ => ?_
  have el : lidx_main_v2 (ix3 b t h) c = ix3 b t c :=
    funext fun a => Fin.ext (by match a with | ⟨0, _⟩ => rfl | ⟨1, _⟩ => rfl | ⟨2, _⟩ => rfl)
  have er : ridx_main_v2 (ix3 b t h) c = ix2 c h :=
    funext fun a => Fin.ext (by match a with | ⟨0, _⟩ => rfl | ⟨1, _⟩ => rfl)
  rw [el, er]

/-! ## The score -/

/-- The unscaled score at (b, t, j): query row t against key row j. -/
theorem v3_at (x0 : XT) (x1 x2 : WT) (b : Fin 8) (t j : Fin 2048) :
    val_main_v3 (F := Ideal) x0 x1 x2 (ix3 b t j) = ∑ h : Fin 128, proj x0 x1 b t h * proj x0 x2 b j h := by
  rw [val_main_v3_apply]
  refine Finset.sum_congr rfl fun h _ => ?_
  have el : lidx_main_v3 (ix3 b t j) h = ix3 b t h :=
    funext fun a => Fin.ext (by match a with | ⟨0, _⟩ => rfl | ⟨1, _⟩ => rfl | ⟨2, _⟩ => rfl)
  have er : ridx_main_v3 (ix3 b t j) h = ix3 b j h :=
    funext fun a => Fin.ext (by match a with | ⟨0, _⟩ => rfl | ⟨1, _⟩ => rfl | ⟨2, _⟩ => rfl)
  rw [el, er, v0_at, v1_at]

/-- The scaled score at (b, t, j). -/
theorem v5_at (x0 : XT) (x1 x2 : WT) (b : Fin 8) (t j : Fin 2048) :
    val_main_v5 (F := Ideal) x0 x1 x2 (ix3 b t j) = scoreAfter x0 x1 x2 scale b t j := by
  rw [val_main_v5_apply, val_main_v4_apply, val_main_cst_apply, v3_at]
  rfl

/-! ## The row maximum -/

/-- Position (b, t) of the reduced array with key coordinate k put back is (b, t, k). -/
theorem lift_at (hr : S8x2048x2048.Reduces [2] S8x2048) (b : Fin 8) (t : Fin 2048) (k : Fin (S8x2048x2048.size 2)) :
    hr.lift (ix2 b t) k = ix3 b t (⟨k.val, k.isLt⟩ : Fin 2048) := by
  funext c; apply Fin.ext
  match c with
  | ⟨0, _⟩ => rfl
  | ⟨1, _⟩ => rfl
  | ⟨2, _⟩ => rfl

/-- −∞ is the least extended real. -/
theorem negInf_eq_bot : (negInf : EReal) = ⊥ := by
  simp [negInf, Ideal.ofBits, Ideal.ieee]

/-- The max-reduce over the keys at (b, t) is the row maximum of the scaled score row. -/
theorem v6_at (x0 : XT) (x1 x2 : WT) (b : Fin 8) (t : Fin 2048) :
    val_main_v6 (F := Ideal) x0 x1 x2 (ix2 b t) = rowMax (scoreAfter x0 x1 x2 scale b t) := by
  have hr : S8x2048x2048.Reduces [2] S8x2048 := by decide
  unfold val_main_v6
  rw [Host.reduce_eq_fold_single FloatOps.maximumf _ _ reducesTo_S8x2048x2048_S8x2048_d2 hr h_S_]
  unfold rowMax
  have hf : (val_main_v5 (F := Ideal) x0 x1 x2 ∘ hr.lift (ix2 b t)) = fun k : Fin 2048 => scoreAfter x0 x1 x2 scale b t k :=
    funext fun k => (congrArg (val_main_v5 (F := Ideal) x0 x1 x2) (lift_at hr b t k)).trans (v5_at x0 x1 x2 b t _)
  exact congrArg (fun f => Finset.fold max negInf f (Finset.univ : Finset (Fin 2048))) hf

/-- Taking the maximum with −∞ once more leaves the row maximum unchanged. -/
theorem v8_at (x0 : XT) (x1 x2 : WT) (b : Fin 8) (t : Fin 2048) :
    val_main_v8 (F := Ideal) x0 x1 x2 (ix2 b t) = rowMax (scoreAfter x0 x1 x2 scale b t) := by
  rw [val_main_v8_apply, val_main_v7_apply, val_main_cst_1_apply, v6_at]
  show max negInf (rowMax (scoreAfter x0 x1 x2 scale b t)) = rowMax (scoreAfter x0 x1 x2 scale b t)
  rw [negInf_eq_bot]
  exact max_eq_right bot_le

/-- The row maximum broadcast back along the keys. -/
theorem v10_at (x0 : XT) (x1 x2 : WT) (b : Fin 8) (t j : Fin 2048) :
    val_main_v10 (F := Ideal) x0 x1 x2 (ix3 b t j) = rowMax (scoreAfter x0 x1 x2 scale b t) := by
  rw [val_main_v10_apply, val_main_v9_apply]
  have e : idx_main_v9 (idx_main_v10 (ix3 b t j)) = ix2 b t :=
    funext fun a => Fin.ext (by match a with | ⟨0, _⟩ => rfl | ⟨1, _⟩ => rfl)
  rw [e, v8_at]

/-! ## The softmax row -/

/-- The shifted exponential at (b, t, j). -/
theorem v12_at (x0 : XT) (x1 x2 : WT) (b : Fin 8) (t j : Fin 2048) :
    val_main_v12 (F := Ideal) x0 x1 x2 (ix3 b t j) = pexp (scoreAfter x0 x1 x2 scale b t) j := by
  rw [val_main_v12_apply, val_main_v11_apply, v5_at, v10_at]
  rfl

/-- The sum of the shifted exponentials at (b, t): the initial value of the sum is 0. -/
theorem v13_at (x0 : XT) (x1 x2 : WT) (b : Fin 8) (t : Fin 2048) :
    val_main_v13 (F := Ideal) x0 x1 x2 (ix2 b t) = denom (scoreAfter x0 x1 x2 scale b t) := by
  rw [val_main_v13_apply, val_main_cst_2_apply, Ideal.ofBits_def, Ideal.ofBits_zero_f32, zero_add]
  unfold denom
  refine Finset.sum_congr rfl fun k _ => ?_
  have e : idx_main_v13 (ix2 b t) k = ix3 b t k :=
    funext fun a => Fin.ext (by match a with | ⟨0, _⟩ => rfl | ⟨1, _⟩ => rfl | ⟨2, _⟩ => rfl)
  rw [e, v12_at]

/-- The denominator broadcast back along the keys. -/
theorem v15_at (x0 : XT) (x1 x2 : WT) (b : Fin 8) (t j : Fin 2048) :
    val_main_v15 (F := Ideal) x0 x1 x2 (ix3 b t j) = denom (scoreAfter x0 x1 x2 scale b t) := by
  rw [val_main_v15_apply, val_main_v14_apply]
  have e : idx_main_v14 (idx_main_v15 (ix3 b t j)) = ix2 b t :=
    funext fun a => Fin.ext (by match a with | ⟨0, _⟩ => rfl | ⟨1, _⟩ => rfl)
  rw [e, v13_at]

/-- The softmax weight at (b, t, j). -/
theorem v16_at (x0 : XT) (x1 x2 : WT) (b : Fin 8) (t j : Fin 2048) :
    val_main_v16 (F := Ideal) x0 x1 x2 (ix3 b t j) = prob (scoreAfter x0 x1 x2 scale b t) j := by
  rw [val_main_v16_apply, v12_at, v15_at]
  rfl

/-! ## The output -/

/-- The reference's result at (b, t, h) is the specification's attention output there, with the scale applied to the
    finished score. -/
theorem ref_entry (x0 : (⟨Cert.ReferenceIdeal.S8x2048x1024, .f32⟩ : BufTy).Contents (Elt Ideal))
    (x1 x2 x3 : (⟨Cert.ReferenceIdeal.S1024x128, .f32⟩ : BufTy).Contents (Elt Ideal)) (b : Fin 8) (t : Fin 2048) (h : Fin 128) :
    Cert.ReferenceIdeal.Read.val_main_v17 (F := Ideal) x0 x1 x2 x3 (ix3 b t h)
      = Cert.Attention.out (Cert.Attention.scoreAfter x0 x1 x2 (Ideal.ofBits .f32 0x3DB504F3#32)) x0 x3 b t h := by
  rw [val_main_v17_apply]
  unfold Cert.Attention.out attnOut
  refine Finset.sum_congr rfl fun j _ => ?_
  have el : lidx_main_v17 (ix3 b t h) j = ix3 b t j :=
    funext fun a => Fin.ext (by match a with | ⟨0, _⟩ => rfl | ⟨1, _⟩ => rfl | ⟨2, _⟩ => rfl)
  have er : ridx_main_v17 (ix3 b t h) j = ix3 b j h :=
    funext fun a => Fin.ext (by match a with | ⟨0, _⟩ => rfl | ⟨1, _⟩ => rfl | ⟨2, _⟩ => rfl)
  rw [el, er, v16_at, v2_at]

end Cert.ReferenceIdeal.RefValue

end
-- ==== Proof.FiniteInputs.lean ====
/-
  Finiteness of the inputs, read back from the precondition.

  The precondition computes, for each of the four input arrays, the bit "|x| < +∞ at every entry": the absolute value
  entry by entry, a strict comparison against the f32 pattern of +∞ spread over the array's shape, and the conjunction
  of all the resulting bits starting from true; the four bits are then and-ed together.  Over the extended reals
  |x| = max x (−x) and the pattern 0x7F800000 denotes ⊤, so |x| < ⊤ holds exactly when x is neither ⊥ nor ⊤, that is,
  when x is a real number.  If the precondition's bit is 1, then, every entry of every input is a real number.
-/
import proofs.«105880_j20280835571855_2_alg».proof.Proof.Gen.Pre_finite_inputs
import Idealize.ShloMosaic.PureOps.Ideal.Laws
import Idealize.ShloMosaic.Lib.ReduceAll
import Idealize.ShloMosaic.Lib.ValueIdx

noncomputable section

namespace Cert.FiniteInputs

open Idealize.ShloMosaic Idealize.ShloMosaic.ValueIdx

/-- The f32 pattern 0x7F800000 denotes +∞. -/
theorem posInf_eq_top : Ideal.ofBits .f32 0x7F800000#32 = (⊤ : EReal) := by
  simp [Ideal.ofBits, Ideal.ieee]

/-- An extended real whose absolute value max x (−x) is strictly below +∞ is a real number: at ⊥ and at ⊤ the
    absolute value is ⊤, which is not below itself. -/
theorem real_of_abs_lt_posInf (x : EReal)
    (h : Ideal.cmp .olt (max x (-x)) (Ideal.ofBits .f32 0x7F800000#32) = 1#1) : ∃ r : ℝ, x = (r : EReal) := by
  rw [posInf_eq_top] at h
  induction x using EReal.rec with
  | bot => exact absurd h (by simp [Ideal.cmp])
  | coe r => exact ⟨r, rfl⟩
  | top => exact absurd h (by simp [Ideal.cmp])

/-- The rank-0 shape has a single index. -/
instance : Subsingleton Cert.Pre_finite_inputs.S_.Idx := ⟨fun a b => funext fun d => d.elim0⟩

/-- One array's bit: if the conjunction over all entries of "|a i| < +∞" is 1, every entry of a is a real number.
    Stated for an arbitrary shape s reduced over all of its axes into the rank-0 shape. -/
theorem real_of_all_finite {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, a i = (r : EReal) :=
  real_of_abs_lt_posInf (a i) (Host.reduce_andi_all _ _ hr hu ix0 e i)

/-- The precondition's bit being 1 says every entry of each of the four inputs is a real number. -/
theorem real_of_pre [Cert.Pre_finite_inputs.Facts]
    (a0 : FVec Ideal Cert.Pre_finite_inputs.S8x2048x1024 .f32) (a1 a2 a3 : FVec Ideal Cert.Pre_finite_inputs.S1024x128 .f32)
    (hpre : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h := congrFun hpre ix0
  dsimp only [Cert.Pre_finite_inputs.fn, Cert.Pre_finite_inputs.fn_part1] at h
  -- the outermost conjunction: (first three arrays) ∧ (fourth array)
  obtain ⟨h012, h3⟩ := IntOp.andi_eq_one.1 h
  obtain ⟨h01, h2⟩ := IntOp.andi_eq_one.1 h012
  obtain ⟨h0, h1⟩ := IntOp.andi_eq_one.1 h01
  exact ⟨real_of_all_finite _ _ _ a0 h0, real_of_all_finite _ _ _ a1 h1, real_of_all_finite _ _ _ a2 h2,
    real_of_all_finite _ _ _ a3 h3⟩

end Cert.FiniteInputs

end
-- ==== Proof.lean ====
/-
  Fused single-head attention against its jnp reference, over the extended reals.

  Both programs compute, for every batch b, query row t and head channel h,
      o[b, t, h] = Σ_j softmax_j (σ · Σ_d q[b, t, d] · k[b, j, d]) · v[b, j, h],
  with q, k, v the projections of x by Wq, Wk, Wv and σ the one f32 constant both programs carry.  The reference
  scales the finished score; the kernel's host code folds σ into Wq before the call.  Every input being finite, all
  the sums are sums of real numbers and σ distributes over them, so the two scores agree entry by entry
  (`Cert.Attention.scoreFolded_eq_scoreAfter`); from the score on, the two programs apply the same operations
  (row maximum from −∞, shifted exponential, row sum, quotient, product with the values).
  The kernel's side: the block one grid point leaves (KernelBlock), the eight blocks assembled (KernelArray).
  The reference's side: its operations read one at a time at an entry (RefIsSpec).  The precondition read as
  "every entry is a real number" is FiniteInputs.
-/
import proofs.«105880_j20280835571855_2_alg».proof.Defs
import proofs.«105880_j20280835571855_2_alg».proof.Proof.Gen.Kernel
import proofs.«105880_j20280835571855_2_alg».proof.Proof.Gen.Kernel.Skeleton
import proofs.«105880_j20280835571855_2_alg».proof.Proof.Gen.Kernel.Loops
import proofs.«105880_j20280835571855_2_alg».proof.Proof.Gen.Kernel.Launch
import proofs.«105880_j20280835571855_2_alg».proof.Proof.Gen.Kernel.Points
import proofs.«105880_j20280835571855_2_alg».proof.Proof.Gen.Kernel.Frame
import proofs.«105880_j20280835571855_2_alg».proof.Proof.Gen.KernelIdeal
import proofs.«105880_j20280835571855_2_alg».proof.Proof.Gen.KernelIdeal.Skeleton
import proofs.«105880_j20280835571855_2_alg».proof.Proof.Gen.KernelIdeal.Loops
import proofs.«105880_j20280835571855_2_alg».proof.Proof.Gen.KernelIdeal.Launch
import proofs.«105880_j20280835571855_2_alg».proof.Proof.Gen.KernelIdeal.Points
import proofs.«105880_j20280835571855_2_alg».proof.Proof.Gen.KernelIdeal.Frame
import proofs.«105880_j20280835571855_2_alg».proof.Proof.Gen.ReferenceIdeal
import proofs.«105880_j20280835571855_2_alg».proof.Proof.Gen.Pre_finite_inputs
import proofs.«105880_j20280835571855_2_alg».proof.Proof.Gen.KernelIdeal.Value
import proofs.«105880_j20280835571855_2_alg».proof.Proof.Gen.ReferenceIdeal.Run
import proofs.«105880_j20280835571855_2_alg».proof.Proof.Gen.ReferenceIdeal.Read
import proofs.«105880_j20280835571855_2_alg».proof.Proof.KernelArray
import proofs.«105880_j20280835571855_2_alg».proof.Proof.RefIsSpec
import proofs.«105880_j20280835571855_2_alg».proof.Proof.FiniteInputs
import Idealize.ShloMosaic.Adequacy
import Idealize.ShloMosaic.Init

noncomputable section

namespace Cert.Proof

open Idealize.ShloMosaic Idealize.ShloMosaic.ValueIdx Idealize.SL.Sem Cert.Attention

/-- The scale constant is a finite number: its exponent field is neither all ones nor zero. -/
theorem scale_real : ∃ r : ℝ, Ideal.ofBits .f32 0x3DB504F3#32 = (r : EReal) := by
  have e : Ideal.ofBits .f32 0x3DB504F3#32 = Ideal.ieee 8 23 (0x3DB504F3#32 : BitVec 32) := rfl
  rw [e]
  unfold Ideal.ieee
  dsimp only
  rw [if_neg (by decide), if_neg (by decide)]
  exact ⟨_, rfl⟩

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments the two idealized programs end with the same array: the kernel's with the
    scale folded into the query weights, the reference's with the score scaled, equal because the inputs are finite. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  obtain ⟨hx, hq, hk, -⟩ := Cert.FiniteInputs.real_of_pre _ _ _ _ (hpre c)
  funext i
  obtain ⟨b, t, h, rfl⟩ : ∃ (b : Fin 8) (t : Fin 2048) (h : Fin 128), i = ix3 b t h := ⟨i 0, i 1, i 2, eq_ix3 i⟩
  refine (Cert.ReferenceIdeal.RefValue.ref_entry _ _ _ _ b t h).trans ?_
  have hs : scoreAfter (Cert.KernelIdeal.Whole.argX m c) (Cert.KernelIdeal.Whole.argQ m c) (Cert.KernelIdeal.Whole.argK m c)
        (Ideal.ofBits .f32 0x3DB504F3#32)
      = scoreFolded (Cert.KernelIdeal.Whole.argX m c) (Cert.KernelIdeal.Whole.argQ m c) (Cert.KernelIdeal.Whole.argK m c)
        (Ideal.ofBits .f32 0x3DB504F3#32) :=
    funext fun b => funext fun t => funext fun j =>
      (scoreFolded_eq_scoreAfter _ _ _ _ hx hq hk scale_real b t j).symm
  exact congrArg (fun s => out s (Cert.KernelIdeal.Whole.argX m c) (Cert.KernelIdeal.Whole.argV m c) b t h) hs

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
